-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16x2048x2048 32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S2048x64 : Shape := ⟨2, ![2048, 64]⟩
abbrev S1024x64 : Shape := ⟨2, ![1024, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i32⟩
  | .hbm, ⟨4, _⟩ => ⟨S16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x2048, .i32⟩
  | .local _ .vmem, ⟨7, _⟩ => ⟨S1x1024x2048, .i32⟩
  | .local _ .vmem, ⟨8, _⟩ => ⟨S1x1024x64, .f32⟩
  | .local _ .vmem, ⟨9, _⟩ => ⟨S1x1024x64, .f32⟩
  | .local _ .vmem, ⟨10, _⟩ => ⟨S2048x64, .bf16⟩
  | .local _ .vmem, ⟨11, _⟩ => ⟨S2048x64, .bf16⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x2048x64.size a
  hwx0_0 : ∀ i : grid0.Coords, EltTy.bits .f32 = 32 ∨ (Rect.block (s := S16x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S16x2048x2048.size a
  hwx0_3 : ∀ i : grid0.Coords, EltTy.bits .i32 = 32 ∨ (Rect.block (s := S16x2048x2048) S1x1024x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S16x2048x64.size a
  hwx0_4 : ∀ i : grid0.Coords, EltTy.bits .f32 = 32 ∨ (Rect.block (s := S16x2048x64) S1x1024x64.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .i32⟩
  | .hbm, ⟨4, _⟩ => ⟨S16x2048x2048, .f32⟩
  | .hbm, ⟨5, _⟩ => ⟨S_, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S_, .i32⟩
  | .hbm, ⟨10, _⟩ => ⟨S16x2048x2048, .i32⟩
  | .hbm, ⟨11, _⟩ => ⟨S16x2048x2048, .i1⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048, .f32⟩
  | .hbm, ⟨17, _⟩ => ⟨S_, .f32⟩
  | .hbm, ⟨18, _⟩ => ⟨S16x2048, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_call0_v0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Pieces.lean ====
/-
  What one grid point's body leaves behind, in each of its two control cases.

  At the first query tile of a batch (case A) the body first stores the whole key block and the whole value block, recast
  to the matrix unit's input format, into two scratch buffers, and then reads them back; at the second query tile (case
  B) it stores nothing into them and reads what the point before left. In both cases the one store into the output buffer
  covers it whole, so the output buffer ends at that store's value: the attention body applied to the query block, the two
  scratch contents and the mask block. In case A the scratch contents are the recast key and value blocks of this point.
-/
import proofs.«180913_j44289702756791_2_alg».proof.Proof.Gen.KernelIdeal.Frame
import Idealize.ShloMosaic.Lib.Pipeline.Value

noncomputable section

namespace Cert.Attn.Pieces

open Cert.KernelIdeal Cert.KernelIdeal.Gen Idealize.ShloMosaic Idealize.ShloMosaic.TcCoe Idealize.ShloMosaic.Tactic
  Idealize.SL.Sem

variable {F : FTy → Type} [FloatOps F]
variable (c : Dev nD) (i : grid0.Coords) (arg2 : Memref sig .tc .vmem S1x1024x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x1024x2048 .i32) (harg5 : arg5.IsWhole) (arg6 : Memref sig .tc .vmem S1x1024x64 .f32) (harg6 : arg6.IsWhole) (arg7 : Memref sig .tc .vmem S2048x64 .bf16) (harg7 : arg7.IsWhole) (arg8 : Memref sig .tc .vmem S2048x64 .bf16) (harg8 : arg8.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

/-- Case A leaves the recast key block in the first scratch buffer. -/
theorem keys_A (hc0 : cond0_0 i) (x0 : Vec F S1x1024x64 .f32) (x1 : Vec F S1x2048x64 .f32) (x2 : Vec F S1x2048x64 .f32) (x3 : Vec F S1x1024x2048 .i32) :
    sout0_A_0 c i arg2 harg2 arg3 harg3 arg4 harg4 arg5 harg5 arg6 harg6 arg7 harg7 arg8 harg8 hc0 x0 x1 x2 x3 = k0_pay1 x1 := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg3.read_unread, View.ld_unit_zero (S := S1x2048x64) hz3]

/-- Case A leaves the recast value block in the second scratch buffer. -/
theorem vals_A (hc0 : cond0_0 i) (x0 : Vec F S1x1024x64 .f32) (x1 : Vec F S1x2048x64 .f32) (x2 : Vec F S1x2048x64 .f32) (x3 : Vec F S1x1024x2048 .i32) :
    sout0_A_1 c i arg2 harg2 arg3 harg3 arg4 harg4 arg5 harg5 arg6 harg6 arg7 harg7 arg8 harg8 hc0 x0 x1 x2 x3 = k0_pay2 x2 := by
  unfold sout0_A_1
  rw [View.read_writes_eq_canon _ _ _ (scover0_A_1 c i arg2 harg2 arg3 harg3 arg4 harg4 arg5 harg5 arg6 harg6 arg7 harg7 arg8 harg8 hc0 x0 x1 x2 x3)]
  unfold kernelRun0_A
  dsimp only
  sl_unfold_words
  rw [View.canon_unit_zero hz2]
  simp only [View.readAt_eq_ld, harg4.read_unread, View.ld_unit_zero (S := S1x2048x64) hz3]

/-- Case A leaves in the output buffer the attention body of the query block, the recast key and value blocks it has just
    stored and read back, and the mask block. -/
theorem out_A (hc0 : cond0_0 i) (x0 : Vec F S1x1024x64 .f32) (x1 : Vec F S1x2048x64 .f32) (x2 : Vec F S1x2048x64 .f32) (x3 : Vec F S1x1024x2048 .i32) :
    out0_A_4 c i arg2 harg2 arg3 harg3 arg4 harg4 arg5 harg5 arg6 harg6 arg7 harg7 arg8 harg8 hc0 x0 x1 x2 x3 = k0_pay3 x0 (k0_pay1 x1) (k0_pay2 x2) x3 := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz3]
  rw [View.readCov_unit_zero (S := S2048x64) _ hz2, View.readCov_unit_zero (S := S2048x64) _ hz2]
  simp only [View.readAt_eq_ld, harg2.read_unread, harg3.read_unread, harg4.read_unread, harg5.read_unread,
    View.ld_unit_zero (S := S1x1024x64) hz3, View.ld_unit_zero (S := S1x2048x64) hz3,
    View.ld_unit_zero (S := S1x1024x2048) hz3]

/-- Case B leaves in the output buffer the attention body of the query block, the two scratch contents the point before
    left, and the mask block. -/
theorem out_B (hc0 : ¬cond0_0 i) (x0 : Vec F S1x1024x64 .f32) (x1 : Vec F S1x2048x64 .f32) (x2 : Vec F S1x2048x64 .f32) (x3 : Vec F S1x1024x2048 .i32) (xs0 xs1 : Vec F S2048x64 .bf16) :
    out0_B_4 c i arg2 harg2 arg3 harg3 arg4 harg4 arg5 harg5 arg6 harg6 arg7 harg7 arg8 harg8 hc0 x0 x1 x2 x3 xs0 xs1 = k0_pay3 x0 xs0 xs1 x3 := by
  unfold out0_B_4
  rw [View.read_writes_eq_canon _ _ _ (cover0_B_4 c i arg2 harg2 arg3 harg3 arg4 harg4 arg5 harg5 arg6 harg6 arg7 harg7 arg8 harg8 hc0 x0 x1 x2 x3 xs0 xs1)]
  unfold kernelRun0_B
  dsimp only
  sl_unfold_words
  rw [View.canon_unit_zero hz3]
  simp only [View.readAt_eq_ld, harg2.read_unread, harg5.read_unread, harg7.read_unread, harg8.read_unread,
    View.ld_unit_zero (S := S1x1024x64) hz3, View.ld_unit_zero (S := S2048x64) hz2,
    View.ld_unit_zero (S := S1x1024x2048) hz3]

end Cert.Attn.Pieces

end
-- ==== Proof.Spec.lean ====
/-
  Masked scaled-dot-product attention, stated once as a function of the four argument arrays.

  For a batch `b`, a query row `o` and a feature `d`, the result is
      ∑ᵢ wᵢ · v[b, i, d],     wᵢ = exp (sᵢ − M) / ∑ᵢ' exp (sᵢ' − M),     M = maxᵢ sᵢ,
  where the score `sᵢ` is a fixed large negative number where the mask `mask[b, o, i]` is zero and otherwise the scaled
  inner product `φ (∑ₑ q[b, o, e] · k[b, i, e])`. The maximum is taken from −∞, so it is the largest score of the row.
  Everything is read over the extended reals, where every operation is the exact one.

  The scaling `φ` is left as a parameter: one program multiplies the inner product by the constant 1/8, the other divides
  it by the square root of 64. These are one function on the extended reals (`scaleMul_eq_scaleDiv`), because √64 = 8 and
  division by a nonzero real number is multiplication by its reciprocal, at the infinities too.
-/
import Idealize.ShloMosaic.PureOps.Ideal
import Idealize.ShloMosaic.Lib.ValueIdx

noncomputable section

open scoped BigOperators

namespace Cert.Attn

open Idealize.ShloMosaic Idealize.ShloMosaic.ValueIdx

/-- The largest entry of a finite row of extended reals, counted from −∞ (the pattern `0xFF800000`). -/
def rowMax {n : ℕ} (f : Fin n → EReal) : EReal :=
  (Finset.univ : Finset (Fin n)).fold max (Ideal.ofBits .f32 0xFF800000#32) f

/-- One score: the fill value (the pattern `0xD01502F9`, −10¹⁰) where the mask word is zero, the scaled inner product
    elsewhere. -/
def score (φ : EReal → EReal) (mask : BitVec 32) (dot : EReal) : EReal :=
  Scalar.select (IntOp.cmpi .eq mask 0#32) (Ideal.ofBits .f32 0xD01502F9#32) (φ dot)

/-- The softmax of a row of scores `s`, applied to a column `w`: `∑ᵢ (exp (sᵢ − M) / ∑ᵢ' exp (sᵢ' − M)) · wᵢ` with
    `M` the row's maximum. -/
def attend {n : ℕ} (s : Fin n → EReal) (w : Fin n → EReal) : EReal :=
  ∑ i : Fin n, Ideal.div (Ideal.exp (s i - rowMax s)) (∑ i' : Fin n, Ideal.exp (s i' - rowMax s)) * w i

/-- Attention at batch `b`, query row `o`, feature `d`. -/
def attn (φ : EReal → EReal) (q k v : (⟨3, ![16, 2048, 64]⟩ : Shape).Idx → EReal)
    (mask : (⟨3, ![16, 2048, 2048]⟩ : Shape).Idx → BitVec 32) (b : Fin 16) (o : Fin 2048) (d : Fin 64) : EReal :=
  attend (fun i : Fin 2048 => score φ (mask (ix3 b o i)) (∑ e : Fin 64, q (ix3 b o e) * k (ix3 b i e)))
    (fun i : Fin 2048 => v (ix3 b i d))

/-- The whole result array: attention at each of its indices. -/
def G (φ : EReal → EReal) (q k v : (⟨3, ![16, 2048, 64]⟩ : Shape).Idx → EReal)
    (mask : (⟨3, ![16, 2048, 2048]⟩ : Shape).Idx → BitVec 32) : (⟨3, ![16, 2048, 64]⟩ : Shape).Idx → EReal :=
  fun j => attn φ q k v mask (j 0 : Fin 16) (j 1 : Fin 2048) (j 2 : Fin 64)

theorem G_ix3 (φ : EReal → EReal) (q k v : (⟨3, ![16, 2048, 64]⟩ : Shape).Idx → EReal)
    (mask : (⟨3, ![16, 2048, 2048]⟩ : Shape).Idx → BitVec 32) (b : Fin 16) (o : Fin 2048) (d : Fin 64) :
    G φ q k v mask (ix3 b o d) = attn φ q k v mask b o d := rfl

/-! ## The two scalings are one function -/

/-- Scaling by the constant 1/8 (the pattern `0x3E000000`). -/
def scaleMul (x : EReal) : EReal := x * Ideal.ofBits .f32 0x3E000000#32

/-- Scaling by division by the square root of 64 (the pattern `0x42800000`). -/
def scaleDiv (x : EReal) : EReal := Ideal.div x (Ideal.sqrt (Ideal.ofBits .f32 0x42800000#32))

/-- The pattern `0x3E000000` denotes the real number 1/8. -/
theorem ofBits_eighth : Ideal.ofBits .f32 0x3E000000#32 = ((1 / 8 : ℝ) : EReal) := by
  simp [Ideal.ofBits, Ideal.ieee, -EReal.coe_mul]; norm_num

/-- The pattern `0x42800000` denotes the real number 64. -/
theorem ofBits_64 : Ideal.ofBits .f32 0x42800000#32 = ((64 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  refine congrArg (fun r : ℝ => (r : EReal)) ?_
  rw [show (64 : ℝ) = 8 ^ 2 by norm_num]
  exact Real.sqrt_sq (by norm_num)

/-- Multiplying by 1/8 and dividing by √64 agree on every extended real. -/
theorem scaleMul_eq_scaleDiv : scaleMul = scaleDiv := by
  funext x
  unfold scaleMul scaleDiv
  rw [ofBits_eighth, ofBits_64, sqrt_64, Ideal.div_coe (by norm_num : (8 : ℝ) ≠ 0)]

end Cert.Attn

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.Body.lean ====
/-
  The attention body of one grid point, read at an index.

  The body takes a block of 1024 query rows, the 2048 key rows and 2048 value rows of the batch, and the matching block of
  the mask. Its value at row `o`, feature `d` is the softmax over `i` of the masked, scaled scores of query row `o` against
  key row `i`, applied to column `d` of the values: exactly `attend` of the specification, with the inner products
  multiplied by 1/8. The steps: the first matrix product is the inner product over the 64 features; the mask selects the
  fill value; the row maximum and the row sum are the lane reductions along the second axis, spread back over the row;
  the second matrix product sums the weights against the values over the 2048 keys. A change of float format is the
  identity over the extended reals.
-/
import proofs.«180913_j44289702756791_2_alg».proof.Proof.Gen.KernelIdeal.Skeleton
import proofs.«180913_j44289702756791_2_alg».proof.Proof.Spec
import proofs.«180913_j44289702756791_2_alg».proof.Proof.LibColumns
import proofs.«180913_j44289702756791_2_alg».proof.Proof.LibRowMax
import Idealize.ShloMosaic.Lib.ValueLayout
import Idealize.ShloMosaic.Lib.Pipeline.Value
import Idealize.ShloMosaic.PureOps.Ideal.Laws

noncomputable section

open scoped BigOperators

namespace Cert.Attn.Body

open Cert.KernelIdeal Cert.KernelIdeal.Gen Idealize.ShloMosaic Idealize.ShloMosaic.ValueIdx Cert.Attn

/-! ## The operand indices of the two matrix products, axis by axis -/

theorem qk_lhs_0 (j : S1024x2048.Idx) (q : dot_S1024x64_S2048x64_S1024x2048_1_1_0_0_n_n.contr.Idx) : (dot_S1024x64_S2048x64_S1024x2048_1_1_0_0_n_n.lhsIdx j q 0).val = (j 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl
theorem qk_lhs_1 (j : S1024x2048.Idx) (q : dot_S1024x64_S2048x64_S1024x2048_1_1_0_0_n_n.contr.Idx) : (dot_S1024x64_S2048x64_S1024x2048_1_1_0_0_n_n.lhsIdx j q 1).val = (q ⟨0, by decide⟩).val :=
  dot_S1024x64_S2048x64_S1024x2048_1_1_0_0_n_n.lhsIdx_val_of_single rfl j q
theorem qk_rhs_0 (j : S1024x2048.Idx) (q : dot_S1024x64_S2048x64_S1024x2048_1_1_0_0_n_n.contr.Idx) : (dot_S1024x64_S2048x64_S1024x2048_1_1_0_0_n_n.rhsIdx j q 0).val = (j 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl
theorem qk_rhs_1 (j : S1024x2048.Idx) (q : dot_S1024x64_S2048x64_S1024x2048_1_1_0_0_n_n.contr.Idx) : (dot_S1024x64_S2048x64_S1024x2048_1_1_0_0_n_n.rhsIdx j q 1).val = (q ⟨0, by decide⟩).val :=
  dot_S1024x64_S2048x64_S1024x2048_1_1_0_0_n_n.rhsIdx_val_of_single rfl j q

theorem pv_lhs_0 (j : S1024x64.Idx) (q : dot_S1024x2048_S2048x64_S1024x64_1_0_0_1_n_n.contr.Idx) : (dot_S1024x2048_S2048x64_S1024x64_1_0_0_1_n_n.lhsIdx j q 0).val = (j 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem pv_lhs_1 (j : S1024x64.Idx) (q : dot_S1024x2048_S2048x64_S1024x64_1_0_0_1_n_n.contr.Idx) : (dot_S1024x2048_S2048x64_S1024x64_1_0_0_1_n_n.lhsIdx j q 1).val = (q ⟨0, by decide⟩).val :=
  dot_S1024x2048_S2048x64_S1024x64_1_0_0_1_n_n.lhsIdx_val_of_single rfl j q
theorem pv_rhs_0 (j : S1024x64.Idx) (q : dot_S1024x2048_S2048x64_S1024x64_1_0_0_1_n_n.contr.Idx) : (dot_S1024x2048_S2048x64_S1024x64_1_0_0_1_n_n.rhsIdx j q 0).val = (q ⟨0, by decide⟩).val :=
  dot_S1024x2048_S2048x64_S1024x64_1_0_0_1_n_n.rhsIdx_val_of_single rfl j q
theorem pv_rhs_1 (j : S1024x64.Idx) (q : dot_S1024x2048_S2048x64_S1024x64_1_0_0_1_n_n.contr.Idx) : (dot_S1024x2048_S2048x64_S1024x64_1_0_0_1_n_n.rhsIdx j q 1).val = (j 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-! ## The two matrix products -/

/-- Queries against keys: entry `(o, i)` is the inner product of row `o` of the left operand with row `i` of the right. -/
theorem qk_at (A : FVec Ideal S1024x64 .bf16) (B : FVec Ideal S2048x64 .bf16) (o : Fin 1024) (i : Fin 2048) :
    matmul dot_S1024x64_S2048x64_S1024x2048_1_1_0_0_n_n none A B (constant (F := Ideal) S1024x2048 .f32 0x00000000#32) (ix2 o i)
      = ∑ e : Fin 64, A (ix2 o e) * B (ix2 i e) := by
  refine (Ideal.matmul_constant_zero_apply dot_S1024x64_S2048x64_S1024x2048_1_1_0_0_n_n none A B (ix2 o i)).trans ?_
  rw [← Equiv.sum_comp (contrEquiv1 dot_S1024x64_S2048x64_S1024x2048_1_1_0_0_n_n 64 rfl rfl).symm]
  refine Finset.sum_congr rfl fun k _ => ?_
  have hk := contrEquiv1_symm_val dot_S1024x64_S2048x64_S1024x2048_1_1_0_0_n_n 64 rfl rfl k
  have el : dot_S1024x64_S2048x64_S1024x2048_1_1_0_0_n_n.lhsIdx (ix2 o i) ((contrEquiv1 dot_S1024x64_S2048x64_S1024x2048_1_1_0_0_n_n 64 rfl rfl).symm k) = ix2 o k :=
    funext fun a => Fin.ext (by
      match a with
      | ⟨0, _⟩ => exact qk_lhs_0 _ _
      | ⟨1, _⟩ => exact (qk_lhs_1 _ _).trans hk)
  have er : dot_S1024x64_S2048x64_S1024x2048_1_1_0_0_n_n.rhsIdx (ix2 o i) ((contrEquiv1 dot_S1024x64_S2048x64_S1024x2048_1_1_0_0_n_n 64 rfl rfl).symm k) = ix2 i k :=
    funext fun a => Fin.ext (by
      match a with
      | ⟨0, _⟩ => exact qk_rhs_0 _ _
      | ⟨1, _⟩ => exact (qk_rhs_1 _ _).trans hk)
  rw [el, er]

/-- Weights against values: entry `(o, d)` sums, over the 2048 keys `i`, weight `(o, i)` times value `(i, d)`. -/
theorem pv_at (A : FVec Ideal S1024x2048 .bf16) (B : FVec Ideal S2048x64 .bf16) (o : Fin 1024) (d : Fin 64) :
    matmul dot_S1024x2048_S2048x64_S1024x64_1_0_0_1_n_n none A B (constant (F := Ideal) S1024x64 .f32 0x00000000#32) (ix2 o d)
      = ∑ i : Fin 2048, A (ix2 o i) * B (ix2 i d) := by
  refine (Ideal.matmul_constant_zero_apply dot_S1024x2048_S2048x64_S1024x64_1_0_0_1_n_n none A B (ix2 o d)).trans ?_
  rw [← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 o d) ((contrEquiv1 dot_S1024x2048_S2048x64_S1024x64_1_0_0_1_n_n 2048 rfl rfl).symm k) = ix2 o k :=
    funext fun a => Fin.ext (by
      match a with
      | ⟨0, _⟩ => exact pv_lhs_0 _ _
      | ⟨1, _⟩ => exact (pv_lhs_1 _ _).trans hk)
  have er : dot_S1024x2048_S2048x64_S1024x64_1_0_0_1_n_n.rhsIdx (ix2 o d) ((contrEquiv1 dot_S1024x2048_S2048x64_S1024x64_1_0_0_1_n_n 2048 rfl rfl).symm k) = ix2 k d :=
    funext fun a => Fin.ext (by
      match a with
      | ⟨0, _⟩ => exact (pv_rhs_0 _ _).trans hk
      | ⟨1, _⟩ => exact pv_rhs_1 _ _)
  rw [el, er]

/-! ## The recast key and value blocks -/

/-- The key block recast for the matrix unit reads, at `(i, e)`, the block's entry `(0, i, e)`. -/
theorem recastK_at (x : FVec Ideal S1x2048x64 .f32) (i : Fin 2048) (e : Fin 64) :
    (k0_pay1 (F := Ideal) x (ix2 i e) : EReal) = x (ix3 (0 : Fin 1) i e) := by
  unfold k0_pay1
  refine (congrFun (shapeCast_self _ _) _).trans ?_
  exact shapeCast_1ab_ab_apply x _ i e

/-- The value block recast for the matrix unit reads, at `(i, d)`, the block's entry `(0, i, d)`. -/
theorem recastV_at (x : FVec Ideal S1x2048x64 .f32) (i : Fin 2048) (d : Fin 64) :
    (k0_pay2 (F := Ideal) x (ix2 i d) : EReal) = x (ix3 (0 : Fin 1) i d) := by
  unfold k0_pay2
  refine (congrFun (shapeCast_self _ _) _).trans ?_
  exact shapeCast_1ab_ab_apply x _ i d

/-! ## The masked, scaled scores -/

/-- The scores of a block of query rows against the key rows, scaled by 1/8, with the fill value where the mask is zero. -/
def scores (x0 : FVec Ideal S1x1024x64 .f32) (xk : FVec Ideal S2048x64 .bf16) (x3 : IVec S1x1024x2048 32) :
    FVec Ideal S1024x2048 .f32 :=
  select (cmpi .eq (shapeCast S1024x2048 x3 shapeCasts_S1x1024x2048_S1024x2048) (broadcast S1024x2048 0#32))
    (broadcast S1024x2048 (Scalar.ofBits (F := Ideal) .f32 0xD01502F9#32))
    (mulf (matmul dot_S1024x64_S2048x64_S1024x2048_1_1_0_0_n_n none
        (truncf .bf16 (shapeCast S1024x64 x0 shapeCasts_S1x1024x64_S1024x64) bitsLt_bf16_f32) xk
        (constant (F := Ideal) S1024x2048 .f32 0x00000000#32))
      (broadcast S1024x2048 (Scalar.ofBits (F := Ideal) .f32 0x3E000000#32)))

/-- At `(o, i)`: the fill value where mask word `(0, o, i)` is zero, else the inner product of query row `o` and key row
    `i` times 1/8. -/
theorem scores_at (x0 : FVec Ideal S1x1024x64 .f32) (xk : FVec Ideal S2048x64 .bf16) (x3 : IVec S1x1024x2048 32)
    (o : Fin 1024) (i : Fin 2048) :
    scores x0 xk x3 (ix2 o i)
      = score scaleMul (x3 (ix3 (0 : Fin 1) o i)) (∑ e : Fin 64, x0 (ix3 (0 : Fin 1) o e) * xk (ix2 i e)) := by
  unfold scores score scaleMul
  show Scalar.select (IntOp.cmpi .eq (shapeCast S1024x2048 x3 shapeCasts_S1x1024x2048_S1024x2048 (ix2 o i)) 0#32)
      (Ideal.ofBits .f32 0xD01502F9#32)
      (matmul dot_S1024x64_S2048x64_S1024x2048_1_1_0_0_n_n none
          (truncf .bf16 (shapeCast S1024x64 x0 shapeCasts_S1x1024x64_S1024x64) bitsLt_bf16_f32) xk
          (constant (F := Ideal) S1024x2048 .f32 0x00000000#32) (ix2 o i)
        * Ideal.ofBits .f32 0x3E000000#32) = _
  rw [shapeCast_1ab_ab_apply x3 _ o i, qk_at]
  have e0 : ∀ e : Fin 64, (truncf .bf16 (shapeCast S1024x64 x0 shapeCasts_S1x1024x64_S1024x64) bitsLt_bf16_f32 :
      FVec Ideal S1024x64 .bf16) (ix2 o e) = x0 (ix3 (0 : Fin 1) o e) := fun e =>
    shapeCast_1ab_ab_apply x0 _ o e
  simp only [e0]

/-! ## The softmax of each row -/

/-- A matrix's row maxima (from −∞), spread back over the rows. -/
def rowMaxSpread (S : FVec Ideal S1024x2048 .f32) : FVec Ideal S1024x2048 .f32 :=
  broadcastTo S1024x2048
    (shapeCast S1024x1 (multiReduction .maximumf [1] S1024 S 0xFF800000#32 reduces_S1024x2048_S1024 (.inl rfl) rfl)
      shapeCasts_S1024_S1024x1) broadcasts_S1024x1_S1024x2048

/-- A matrix's row sums (from zero), spread back over the rows. -/
def rowSumSpread (E : FVec Ideal S1024x2048 .f32) : FVec Ideal S1024x2048 .f32 :=
  broadcastTo S1024x2048
    (shapeCast S1024x1 (multiReduction .add [1] S1024 E 0x00000000#32 reduces_S1024x2048_S1024 (.inl rfl) rfl)
      shapeCasts_S1024_S1024x1) broadcasts_S1024x1_S1024x2048

theorem rowMaxSpread_at (S : FVec Ideal S1024x2048 .f32) (o : Fin 1024) (i : Fin 2048) :
    rowMaxSpread S (ix2 o i) = rowMax (fun i' : Fin 2048 => S (ix2 o i')) := by
  unfold rowMaxSpread
  refine (Cert.LibColumns.broadcastTo_a1_ab_apply _ _ o i).trans ?_
  refine (Cert.LibColumns.shapeCast_a_a1_apply _ _ o 0).trans ?_
  exact Cert.LibRowMax.rowMax_apply S _ _ _ _ o

theorem rowSumSpread_at (E : FVec Ideal S1024x2048 .f32) (o : Fin 1024) (i : Fin 2048) :
    rowSumSpread E (ix2 o i) = ∑ i' : Fin 2048, E (ix2 o i') := by
  unfold rowSumSpread
  refine (Cert.LibColumns.broadcastTo_a1_ab_apply _ _ o i).trans ?_
  refine (Cert.LibColumns.shapeCast_a_a1_apply _ _ o 0).trans ?_
  exact Cert.LibColumns.rowSum_apply E _ _ _ _ o

/-- The exponentials of the scores less their row's maximum. -/
def expShifted (S : FVec Ideal S1024x2048 .f32) : FVec Ideal S1024x2048 .f32 :=
  exp (subf S (rowMaxSpread S))

theorem expShifted_at (S : FVec Ideal S1024x2048 .f32) (o : Fin 1024) (i : Fin 2048) :
    expShifted S (ix2 o i) = Ideal.exp (S (ix2 o i) - rowMax (fun i' : Fin 2048 => S (ix2 o i'))) := by
  unfold expShifted
  show Ideal.exp (S (ix2 o i) - rowMaxSpread S (ix2 o i)) = _
  rw [rowMaxSpread_at]

/-- Each row's exponentials divided by their sum. -/
def softmaxRows (S : FVec Ideal S1024x2048 .f32) : FVec Ideal S1024x2048 .f32 :=
  divf (expShifted S) (rowSumSpread (expShifted S))

theorem softmaxRows_at (S : FVec Ideal S1024x2048 .f32) (o : Fin 1024) (i : Fin 2048) :
    softmaxRows S (ix2 o i)
      = Ideal.div (Ideal.exp (S (ix2 o i) - rowMax (fun i' : Fin 2048 => S (ix2 o i'))))
          (∑ i' : Fin 2048, Ideal.exp (S (ix2 o i') - rowMax (fun i'' : Fin 2048 => S (ix2 o i'')))) := by
  unfold softmaxRows
  show Ideal.div (expShifted S (ix2 o i)) (rowSumSpread (expShifted S) (ix2 o i)) = _
  rw [rowSumSpread_at, expShifted_at]
  simp only [expShifted_at]

/-! ## The body -/

/-- The body is the second matrix product of the rows' softmax with the values, recast to the output block's shape. -/
theorem body_eq (x0 : FVec Ideal S1x1024x64 .f32) (xk xv : FVec Ideal S2048x64 .bf16) (x3 : IVec S1x1024x2048 32) :
    k0_pay3 (F := Ideal) x0 xk xv x3
      = shapeCast S1x1024x64
          (matmul dot_S1024x2048_S2048x64_S1024x64_1_0_0_1_n_n none
            (truncf .bf16 (softmaxRows (scores x0 xk x3)) bitsLt_bf16_f32) xv
            (constant (F := Ideal) S1024x64 .f32 0x00000000#32))
          shapeCasts_S1024x64_S1x1024x64 := rfl

/-- The body at `(u, o, d)`: the softmax of query row `o`'s scores applied to column `d` of the values. -/
theorem body_at (x0 : FVec Ideal S1x1024x64 .f32) (xk xv : FVec Ideal S2048x64 .bf16) (x3 : IVec S1x1024x2048 32)
    (u : Fin 1) (o : Fin 1024) (d : Fin 64) :
    (k0_pay3 (F := Ideal) x0 xk xv x3 (ix3 u o d) : EReal)
      = attend (fun i : Fin 2048 =>
            score scaleMul (x3 (ix3 (0 : Fin 1) o i)) (∑ e : Fin 64, x0 (ix3 (0 : Fin 1) o e) * xk (ix2 i e)))
          (fun i : Fin 2048 => xv (ix2 i d)) := by
  rw [body_eq]
  refine (shapeCast_ab_1ab_apply _ _ u o d).trans ?_
  refine (pv_at _ xv o d).trans ?_
  unfold attend
  refine Finset.sum_congr rfl fun i _ => congrArg (· * xv (ix2 i d)) ?_
  refine (softmaxRows_at (scores x0 xk x3) o i).trans ?_
  simp only [scores_at]

end Cert.Attn.Body

end
-- ==== Proof.KernelValue.lean ====
/-
  From the grid points' blocks to the whole result array.

  The grid has 32 points: point `t` works on batch `t / 2` and on the query tile `t mod 2` of 1024 rows. Its query,
  mask and output blocks are rows `1024·(t mod 2) …` of batch `t / 2`; its key and value blocks are the whole batch
  `t / 2`, whichever tile. So the body's value at row `o` of point `t` is attention at row `1024·(t mod 2) + o` of batch
  `t / 2`: block `t` of the one whole-array function. At an even point the body recasts the key and value blocks itself;
  at an odd point it reads the recast blocks the point before left, and that point is even and of the same batch, so
  they are the same blocks. The 32 output blocks tile the result array (row `r` of batch `b` lies in point
  `2·b + r / 1024`), so the array ends at attention everywhere.
-/
import proofs.«180913_j44289702756791_2_alg».proof.Proof.Gen.KernelIdeal.Value
import proofs.«180913_j44289702756791_2_alg».proof.Proof.Pieces
import proofs.«180913_j44289702756791_2_alg».proof.Proof.Body
import proofs.«180913_j44289702756791_2_alg».proof.Proof.Spec

noncomputable section

open scoped BigOperators

namespace Cert.Attn.KernelValue

open Cert.KernelIdeal Cert.KernelIdeal.Gen Cert.KernelIdeal.Value Idealize.ShloMosaic Idealize.ShloMosaic.TcCoe
  Idealize.ShloMosaic.ValueIdx Idealize.SL.Sem Cert.Attn
open Idealize.ShloMosaic.Pipeline (Dat)

variable (m : (ℓ : Loc nD τ sig) → Buf (Elt Ideal) ℓ) (ρ : Dev nD → PrngReg)

/-- Attention (inner products times 1/8) of the four argument arrays as core `c` holds them at launch. -/
abbrev result (c : Dev nD) : S16x2048x64.Idx → EReal :=
  G scaleMul (m ((c : Thread nD τ).loc main_arg0)) (m ((c : Thread nD τ).loc main_arg1))
    (m ((c : Thread nD τ).loc main_arg2)) (m ((c : Thread nD τ).loc main_arg3))

/-! ## Where each point's blocks sit -/

/-- The block index maps, decided over the 32 points: queries, mask and output at (batch, tile, 0); keys and values at
    (batch, 0, 0). -/
theorem idx_facts : ∀ t : Fin cfg0.N,
    (win0_0.index t (0 : Fin 3) = t.val / 2 ∧ win0_0.index t (1 : Fin 3) = t.val % 2 ∧ win0_0.index t (2 : Fin 3) = 0)
    ∧ (win0_1.index t (0 : Fin 3) = t.val / 2 ∧ win0_1.index t (1 : Fin 3) = 0 ∧ win0_1.index t (2 : Fin 3) = 0)
    ∧ (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = t.val % 2 ∧ win0_3.index t (2 : Fin 3) = 0)
    ∧ (win0_4.index t (0 : Fin 3) = t.val / 2 ∧ win0_4.index t (1 : Fin 3) = t.val % 2 ∧ win0_4.index t (2 : Fin 3) = 0) :=
  (by decide +kernel : ∀ t : Fin grid0.N, _)

/-- The batch point `t` works on. -/
def batchOf (t : Fin cfg0.N) : Fin 16 :=
  ⟨t.val / 2, by have h := t.isLt; have hN : cfg0.N = 32 := N_0; omega⟩

/-- The array row of row `o` of point `t`'s query tile. -/
def rowOf (t : Fin cfg0.N) (o : Fin 1024) : Fin 2048 :=
  ⟨t.val % 2 * 1024 + o.val, by have h := o.isLt; omega⟩

theorem emb0 (t : Fin cfg0.N) (u : Fin 1) (o : Fin 1024) (e : Fin 64) :
    ((cfg0.win 0).blk t).view.emb (ix3 u o e) = ix3 (batchOf t) (rowOf t o) e := by
  obtain ⟨⟨h0, h1, h2⟩, -⟩ := idx_facts t
  funext a; apply Fin.ext
  match a with
  | ⟨0, _⟩ => show win0_0.index t (0 : Fin 3) * 1 + 1 * u.val = t.val / 2; have := u.isLt; omega
  | ⟨1, _⟩ => show win0_0.index t (1 : Fin 3) * 1024 + 1 * o.val = t.val % 2 * 1024 + o.val; omega
  | ⟨2, _⟩ => show win0_0.index t (2 : Fin 3) * 64 + 1 * e.val = e.val; omega

theorem emb1 (t : Fin cfg0.N) (u : Fin 1) (i : Fin 2048) (e : Fin 64) :
    ((cfg0.win 1).blk t).view.emb (ix3 u i e) = ix3 (batchOf t) i e := by
  obtain ⟨-, ⟨h0, h1, h2⟩, -⟩ := idx_facts t
  funext a; apply Fin.ext
  match a with
  | ⟨0, _⟩ => show win0_1.index t (0 : Fin 3) * 1 + 1 * u.val = t.val / 2; have := u.isLt; omega
  | ⟨1, _⟩ => show win0_1.index t (1 : Fin 3) * 2048 + 1 * i.val = i.val; omega
  | ⟨2, _⟩ => show win0_1.index t (2 : Fin 3) * 64 + 1 * e.val = e.val; omega

theorem emb2 (t : Fin cfg0.N) (u : Fin 1) (i : Fin 2048) (d : Fin 64) :
    ((cfg0.win 2).blk t).view.emb (ix3 u i d) = ix3 (batchOf t) i d := by
  obtain ⟨-, -, ⟨h0, h1, h2⟩, -⟩ := idx_facts t
  funext a; apply Fin.ext
  match a with
  | ⟨0, _⟩ => show win0_2.index t (0 : Fin 3) * 1 + 1 * u.val = t.val / 2; have := u.isLt; omega
  | ⟨1, _⟩ => show win0_2.index t (1 : Fin 3) * 2048 + 1 * i.val = i.val; omega
  | ⟨2, _⟩ => show win0_2.index t (2 : Fin 3) * 64 + 1 * d.val = d.val; omega

theorem emb3 (t : Fin cfg0.N) (u : Fin 1) (o : Fin 1024) (i : Fin 2048) :
    ((cfg0.win 3).blk t).view.emb (ix3 u o i) = ix3 (batchOf t) (rowOf t o) i := by
  obtain ⟨-, -, -, ⟨h0, h1, h2⟩, -⟩ := idx_facts t
  funext a; apply Fin.ext
  match a with
  | ⟨0, _⟩ => show win0_3.index t (0 : Fin 3) * 1 + 1 * u.val = t.val / 2; have := u.isLt; omega
  | ⟨1, _⟩ => show win0_3.index t (1 : Fin 3) * 1024 + 1 * o.val = t.val % 2 * 1024 + o.val; omega
  | ⟨2, _⟩ => show win0_3.index t (2 : Fin 3) * 2048 + 1 * i.val = i.val; omega

theorem emb4 (t : Fin cfg0.N) (u : Fin 1) (o : Fin 1024) (d : Fin 64) :
    ((cfg0.win 4).blk t).view.emb (ix3 u o d) = ix3 (batchOf t) (rowOf t o) d := by
  obtain ⟨-, -, -, -, ⟨h0, h1, h2⟩⟩ := idx_facts t
  funext a; apply Fin.ext
  match a with
  | ⟨0, _⟩ => show win0_4.index t (0 : Fin 3) * 1 + 1 * u.val = t.val / 2; have := u.isLt; omega
  | ⟨1, _⟩ => show win0_4.index t (1 : Fin 3) * 1024 + 1 * o.val = t.val % 2 * 1024 + o.val; omega
  | ⟨2, _⟩ => show win0_4.index t (2 : Fin 3) * 64 + 1 * d.val = d.val; omega

/-! ## The recast key and value blocks of a point are the batch's keys and values -/

theorem keys_block (c : Dev nD) (t : Fin cfg0.N) (i : Fin 2048) (e : Fin 64) :
    (k0_pay1 (F := Ideal) (iblk m c 1 t) (ix2 i e) : EReal) = m ((c : Thread nD τ).loc main_arg1) (ix3 (batchOf t) i e) := by
  refine (Body.recastK_at (iblk m c 1 t) i e).trans ?_
  show V m c main_arg1 (((cfg0.win 1).blk t).view.emb (ix3 (0 : Fin 1) i e)) = _
  rw [emb1]

theorem vals_block (c : Dev nD) (t : Fin cfg0.N) (i : Fin 2048) (d : Fin 64) :
    (k0_pay2 (F := Ideal) (iblk m c 2 t) (ix2 i d) : EReal) = m ((c : Thread nD τ).loc main_arg2) (ix3 (batchOf t) i d) := by
  refine (Body.recastV_at (iblk m c 2 t) i d).trans ?_
  show V m c main_arg2 (((cfg0.win 2).blk t).view.emb (ix3 (0 : Fin 1) i d)) = _
  rw [emb2]

/-! ## One point's output block -/

/-- With the batch's keys and values in the two scratch buffers, the body's value at point `t` is block `t` of
    attention. -/
theorem point_eq (c : Dev nD) (t : Fin cfg0.N) (xs0 xs1 : FVec Ideal S2048x64 .bf16)
    (hk : ∀ (i : Fin 2048) (e : Fin 64), xs0 (ix2 i e) = m ((c : Thread nD τ).loc main_arg1) (ix3 (batchOf t) i e))
    (hv : ∀ (i : Fin 2048) (d : Fin 64), xs1 (ix2 i d) = m ((c : Thread nD τ).loc main_arg2) (ix3 (batchOf t) i d)) :
    (cfg0.win 4).cut (grid0.coords t) (k0_pay3 (F := Ideal) (iblk m c 0 t) xs0 xs1 (iblk m c 3 t))
      = ((cfg0.win 4).blk t).view.read (Elt Ideal) (result m c) := by
  funext j
  obtain ⟨u, o, d, rfl⟩ : ∃ (u : Fin 1) (o : Fin 1024) (d : Fin 64), j = ix3 u o d := ⟨j 0, j 1, j 2, eq_ix3 j⟩
  show (k0_pay3 (F := Ideal) (iblk m c 0 t) xs0 xs1 (iblk m c 3 t) (ix3 u o d) : EReal)
    = result m c (((cfg0.win 4).blk t).view.emb (ix3 u o d))
  rw [emb4]
  refine (Body.body_at (iblk m c 0 t) xs0 xs1 (iblk m c 3 t) u o d).trans ?_
  show _ = attn scaleMul _ _ _ _ (batchOf t) (rowOf t o) d
  unfold attn
  have h0 : ∀ e : Fin 64, (iblk m c 0 t (ix3 (0 : Fin 1) o e) : EReal)
      = m ((c : Thread nD τ).loc main_arg0) (ix3 (batchOf t) (rowOf t o) e) := fun e => by
    show V m c main_arg0 (((cfg0.win 0).blk t).view.emb (ix3 (0 : Fin 1) o e)) = _
    rw [emb0]
  have h3 : ∀ i : Fin 2048, (iblk m c 3 t (ix3 (0 : Fin 1) o i) : BitVec 32)
      = m ((c : Thread nD τ).loc main_arg3) (ix3 (batchOf t) (rowOf t o) i) := fun i => by
    show V m c main_arg3 (((cfg0.win 3).blk t).view.emb (ix3 (0 : Fin 1) o i)) = _
    rw [emb3]
  simp only [h0, h3, hk, hv]

/-! ## What every point writes back -/

/-- The contents after a point do not depend on how the point's number is written. -/
theorem outsAt0_congr (c : Dev nD) {n n' : ℕ} (h : n < cfg0.N) (h' : n' < cfg0.N) (e : n = n') :
    outsAt0 m c n h = outsAt0 m c n' h' := by
  subst e; rfl

/-- After an even point the two scratch buffers hold that point's recast key and value blocks. -/
theorem scratch_even (c : Dev nD) (t : Fin cfg0.N) (he : t.val % 2 = 0) :
    (outsAt0 m c t.val t.isLt).2.1 = k0_pay1 (F := Ideal) (iblk m c 1 t)
    ∧ (outsAt0 m c t.val t.isLt).2.2 = k0_pay2 (F := Ideal) (iblk m c 2 t) := by
  rw [outsAt0_A m c t he]
  dsimp only
  exact ⟨Pieces.keys_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr he) (iblk m c 0 t) (iblk m c 1 t) (iblk m c 2 t) (iblk m c 3 t),
    Pieces.vals_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr he) (iblk m c 0 t) (iblk m c 1 t) (iblk m c 2 t) (iblk m c 3 t)⟩

theorem flushed_eq (c : Dev nD) (t : Fin cfg0.N) :
    (dats m 0 c).flushed 4 t = ((cfg0.win 4).blk t).view.read (Elt Ideal) (result m c) := by
  have hN : cfg0.N = 32 := N_0
  by_cases h0 : t.val % 2 = 0
  · refine (flushed4_A m c t h0).trans ?_
    refine (congrArg ((cfg0.win 4).cut (grid0.coords t))
      (Pieces.out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t))).trans ?_
    exact point_eq m c t _ _ (keys_block m c t) (vals_block m c t)
  · have hlt : t.val - 1 < cfg0.N := Nat.lt_of_le_of_lt (Nat.sub_le _ _) t.isLt
    obtain ⟨t', ht'⟩ : ∃ t' : Fin cfg0.N, t'.val = t.val - 1 := ⟨⟨t.val - 1, hlt⟩, rfl⟩
    have he : t'.val % 2 = 0 := by omega
    have hb : batchOf t' = batchOf t := Fin.ext (by show t'.val / 2 = t.val / 2; omega)
    have hprev : outsAt0 m c (t.val - 1) hlt = outsAt0 m c t'.val t'.isLt := outsAt0_congr m c _ _ ht'.symm
    obtain ⟨hs0, hs1⟩ := scratch_even m c t' he
    refine (flushed4_B m c t h0).trans ?_
    refine (congrArg ((cfg0.win 4).cut (grid0.coords t))
      (Pieces.out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
        (outsAt0 m c (t.val - 1) hlt).2.1 (outsAt0 m c (t.val - 1) hlt).2.2)).trans ?_
    refine point_eq m c t _ _ (fun i e => ?_) (fun i d => ?_)
    · rw [hprev, hs0, ← hb]; exact keys_block m c t' i e
    · rw [hprev, hs1, ← hb]; exact vals_block m c t' i d

/-! ## The blocks tile the array -/

theorem mem_blk (t : Fin cfg0.N) (i : S16x2048x64.Idx) :
    i ∈ ((cfg0.win 4).blk t).view.set ↔ ∀ a : Fin 3, win0_4.index t a * S1x1024x64.size a ≤ (i a).val
      ∧ (i a).val < win0_4.index t a * S1x1024x64.size a + S1x1024x64.size a := by
  show i ∈ ((View.whole main_v0).slice (win0_4.rect t)).set ↔ _
  rw [View.set_slice_whole, Rect.mem_set_unit]
  exact Iff.rfl

theorem cover (i : S16x2048x64.Idx) :
    ∃ t : Fin cfg0.N, (cfg0.win 4).flush t = true ∧ i ∈ ((cfg0.win 4).blk t).view.set := by
  have hN : cfg0.N = 32 := N_0
  have hi0 : (i 0).val < 16 := (i 0).isLt
  have hi1 : (i 1).val < 2048 := (i 1).isLt
  have hi2 : (i 2).val < 64 := (i 2).isLt
  obtain ⟨t, ht⟩ : ∃ t : Fin cfg0.N, t.val = 2 * (i 0).val + (i 1).val / 1024 := ⟨⟨_, by omega⟩, rfl⟩
  obtain ⟨-, -, -, -, ⟨h0, h1, h2⟩⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 64 ≤ (i 2).val ∧ (i 2).val < win0_4.index t (2 : Fin 3) * 64 + 64
    omega

/-- The result array after the run is attention of the argument arrays. -/
theorem final (c : Dev nD) : (dats m 0 c).arrAt 4 cfg0.N = result m c :=
  (dats m 0 c).arrAt_eq_of_cover 4 (result m c) (fun t _ => flushed_eq m c t) cover

/-! ## The run -/

/-- Every weakly fair execution of the idealized kernel program ends with the result array at attention of the argument
    arrays, and the argument arrays unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Attn.KernelValue

end
-- ==== Proof.RefRead.lean ====
/-
  The reference program computes attention with the inner products divided by √64.

  Its operations are read one at a time at an index. At `(b, o, i)` the masked score is the fill value where the mask is
  zero and the inner product of query row `o` with key row `i` divided by √64 elsewhere; the row's maximum is the fold of
  `max` from −∞ over `i` (taking the maximum with −∞ once more changes nothing); the exponentials of the scores less the
  maximum are summed along the row from zero; each exponential is divided by that sum; and the last contraction sums the
  weights against the values' column `d`.
-/
import proofs.«180913_j44289702756791_2_alg».proof.Proof.Gen.ReferenceIdeal.Read
import proofs.«180913_j44289702756791_2_alg».proof.Proof.Spec
import Idealize.ShloMosaic.PureOps.Ideal.Laws

noncomputable section

open scoped BigOperators

namespace Cert.Attn.Ref

open Cert.ReferenceIdeal Cert.ReferenceIdeal.Gen Cert.ReferenceIdeal.Read Idealize.ShloMosaic Idealize.ShloMosaic.ValueIdx Cert.Attn

variable (x0 x1 x2 : (⟨S16x2048x64, .f32⟩ : BufTy).Contents (Elt Ideal))
  (x3 : (⟨S16x2048x2048, .i32⟩ : BufTy).Contents (Elt Ideal))

/-- The maximum with −∞ is the other operand. -/
theorem max_negInf (y : EReal) : max (Ideal.ofBits .f32 0xFF800000#32) y = y := by
  simp [Ideal.ofBits, Ideal.ieee]

/-- The masked, scaled score at `(b, o, i)`. -/
theorem score_at (b : Fin 16) (o i : Fin 2048) :
    val_main_v6 (F := Ideal) x0 x1 x3 (ix3 b o i)
      = score scaleDiv (x3 (ix3 b o i)) (∑ e : Fin 64, x0 (ix3 b o e) * x1 (ix3 b i e)) := by
  have el : ∀ e : Fin 64, lidx_main_v0 (ix3 b o i) e = ix3 b o e := fun e =>
    funext fun a => Fin.ext (by match a with | ⟨0, _⟩ => rfl | ⟨1, _⟩ => rfl | ⟨2, _⟩ => rfl)
  have er : ∀ e : Fin 64, ridx_main_v0 (ix3 b o i) e = ix3 b i e := fun e =>
    funext fun a => Fin.ext (by match a with | ⟨0, _⟩ => rfl | ⟨1, _⟩ => rfl | ⟨2, _⟩ => rfl)
  rw [val_main_v6_apply, val_main_v5_apply, val_main_v4_apply, val_main_c_apply, val_main_call0_v0_apply,
    val_main_cst_0_apply, val_main_v3_apply, val_main_v0_apply, val_main_v2_apply, val_main_v1_apply, val_main_cst_apply]
  simp only [el, er]
  rfl

/-- A reduction with a maximum body along the last axis, started from −∞, reads at `(b, o)` the largest entry of row
    `(b, o)`: the operation is commutative and associative, so the order of the fold does not matter. -/
theorem hostRowMax (y : FVec Ideal S16x2048x2048 .f32) (b : Fin 16) (o : Fin 2048) :
    Host.reduce FloatOps.maximumf y (constant (F := Ideal) S_ .f32 0xFF800000#32) reducesTo_S16x2048x2048_S16x2048_d2 h_S_
        (ix2 b o)
      = rowMax (fun k : Fin 2048 => y (ix3 b o k)) := by
  have h : S16x2048x2048.Reduces [(2 : Fin S16x2048x2048.rank)] S16x2048 := by decide
  refine (Host.reduce_eq_fold_single FloatOps.maximumf y _ reducesTo_S16x2048x2048_S16x2048_d2 h h_S_ (ix2 b o)).trans ?_
  have hf : (y ∘ h.lift (ix2 b o)) = fun k : Fin 2048 => y (ix3 b o k) := funext fun k => congrArg y
    (funext fun a => Fin.ext (by match a with | ⟨0, _⟩ => rfl | ⟨1, _⟩ => rfl | ⟨2, _⟩ => rfl))
  exact congrArg (fun f => Finset.fold max (Ideal.ofBits .f32 0xFF800000#32) f (Finset.univ : Finset (Fin 2048))) hf

/-- The row maximum at `(b, o)`: the fold of `max` from −∞ over the row's scores. -/
theorem rowMax_at (b : Fin 16) (o : Fin 2048) :
    val_main_v9 (F := Ideal) x0 x1 x3 (ix2 b o)
      = rowMax (fun i : Fin 2048 => val_main_v6 (F := Ideal) x0 x1 x3 (ix3 b o i)) := by
  rw [val_main_v9_apply, val_main_v8_apply, val_main_cst_2_apply]
  refine (max_negInf _).trans ?_
  unfold val_main_v7 val_main_cst_1
  exact hostRowMax _ b o

/-- The exponential of a score less its row's maximum, at `(b, o, i)`. -/
theorem exp_at (b : Fin 16) (o i : Fin 2048) :
    val_main_v13 (F := Ideal) x0 x1 x3 (ix3 b o i)
      = Ideal.exp (val_main_v6 (F := Ideal) x0 x1 x3 (ix3 b o i)
          - rowMax (fun i' : Fin 2048 => val_main_v6 (F := Ideal) x0 x1 x3 (ix3 b o i'))) := by
  have e1 : idx_main_v10 (idx_main_v11 (ix3 b o i)) = ix2 b o :=
    funext fun a => Fin.ext (by match a with | ⟨0, _⟩ => rfl | ⟨1, _⟩ => rfl)
  rw [val_main_v13_apply, val_main_v12_apply, val_main_v11_apply, val_main_v10_apply, e1, rowMax_at]
  rfl

/-- The normalised weight at `(b, o, i)`: the exponential over the row's sum of exponentials (summed from zero). -/
theorem weight_at (b : Fin 16) (o i : Fin 2048) :
    val_main_v17 (F := Ideal) x0 x1 x3 (ix3 b o i)
      = Ideal.div (val_main_v13 (F := Ideal) x0 x1 x3 (ix3 b o i))
          (∑ i' : Fin 2048, val_main_v13 (F := Ideal) x0 x1 x3 (ix3 b o i')) := by
  have e1 : idx_main_v15 (idx_main_v16 (ix3 b o i)) = ix2 b o :=
    funext fun a => Fin.ext (by match a with | ⟨0, _⟩ => rfl | ⟨1, _⟩ => rfl)
  have e2 : ∀ k : Fin 2048, idx_main_v14 (ix2 b o) k = ix3 b o k := fun k =>
    funext fun a => Fin.ext (by match a with | ⟨0, _⟩ => rfl | ⟨1, _⟩ => rfl | ⟨2, _⟩ => rfl)
  rw [val_main_v17_apply, val_main_v16_apply, val_main_v15_apply, e1, val_main_v14_apply, val_main_cst_3_apply]
  simp only [e2]
  show Ideal.div _ (Ideal.ofBits .f32 0x00000000#32 + _) = _
  rw [Ideal.ofBits_zero_f32, zero_add]

/-- The reference's result array is attention with the inner products divided by √64. -/
theorem ref_eq : val_main_v18 (F := Ideal) x0 x1 x2 x3 = G scaleDiv x0 x1 x2 x3 := by
  funext j
  obtain ⟨b, o, d, rfl⟩ : ∃ (b : Fin 16) (o : Fin 2048) (d : Fin 64), j = ix3 b o d := ⟨j 0, j 1, j 2, eq_ix3 j⟩
  have el : ∀ k : Fin 2048, lidx_main_v18 (ix3 b o d) k = ix3 b o k := fun k =>
    funext fun a => Fin.ext (by match a with | ⟨0, _⟩ => rfl | ⟨1, _⟩ => rfl | ⟨2, _⟩ => rfl)
  have er : ∀ k : Fin 2048, ridx_main_v18 (ix3 b o d) k = ix3 b k d := fun k =>
    funext fun a => Fin.ext (by match a with | ⟨0, _⟩ => rfl | ⟨1, _⟩ => rfl | ⟨2, _⟩ => rfl)
  rw [G_ix3, val_main_v18_apply]
  simp only [el, er, weight_at, exp_at, score_at]
  rfl

end Cert.Attn.Ref

end
-- ==== Proof.lean ====
/-
  Masked scaled-dot-product attention: a tiled kernel against a whole-array reference.

  Both programs compute, for batch `b`, query row `o` and feature `d`,
      ∑ᵢ softmaxᵢ(s) · v[b, i, d],    sᵢ = (fill where mask[b, o, i] = 0, else the scaled inner product of q[b, o, ·] and k[b, i, ·]),
  the softmax taken with the row's maximum subtracted. The kernel walks a grid of 16 batches × 2 query tiles, keeps the
  batch's keys and values in two scratch buffers filled at the first tile and reused at the second, and scales the inner
  products by the constant 1/8; the reference works on whole arrays and divides the inner products by √64.

  Over the extended reals the two are one function of the arguments:
  * the kernel's result array is attention with the scaling "times 1/8" (`Cert.Attn.KernelValue.run`): each grid point's
    body is attention on its blocks, the blocks are restrictions of the whole arrays, the carried scratch at an odd point
    holds what the even point of the same batch stored, and the 32 output blocks tile the result;
  * the reference's result array is attention with the scaling "divided by √64" (`Cert.Attn.Ref.ref_eq`), its operations
    read one at a time at an index;
  * the two scalings agree on every extended real (`Cert.Attn.scaleMul_eq_scaleDiv`): √64 = 8, and division by a nonzero
    real is multiplication by its reciprocal, at the infinities too. No other law is needed — sums and maxima are only
    regrouped — so the finiteness of the inputs is never used.

  Each program runs, without fault, with its arguments unchanged: the two kernels by their frame runs, the reference by
  its run with the result dropped. The idealization rewrote no operation, so there is nothing to preserve.
-/
import proofs.«180913_j44289702756791_2_alg».proof.Defs
import proofs.«180913_j44289702756791_2_alg».proof.Proof.Gen.Kernel
import proofs.«180913_j44289702756791_2_alg».proof.Proof.Gen.Kernel.Skeleton
import proofs.«180913_j44289702756791_2_alg».proof.Proof.Gen.Kernel.Launch
import proofs.«180913_j44289702756791_2_alg».proof.Proof.Gen.Kernel.Points
import proofs.«180913_j44289702756791_2_alg».proof.Proof.Gen.Kernel.Frame
import proofs.«180913_j44289702756791_2_alg».proof.Proof.Gen.KernelIdeal
import proofs.«180913_j44289702756791_2_alg».proof.Proof.Gen.KernelIdeal.Skeleton
import proofs.«180913_j44289702756791_2_alg».proof.Proof.Gen.KernelIdeal.Launch
import proofs.«180913_j44289702756791_2_alg».proof.Proof.Gen.KernelIdeal.Points
import proofs.«180913_j44289702756791_2_alg».proof.Proof.Gen.KernelIdeal.Frame
import proofs.«180913_j44289702756791_2_alg».proof.Proof.Gen.ReferenceIdeal
import proofs.«180913_j44289702756791_2_alg».proof.Proof.Gen.Pre_finite_inputs
import proofs.«180913_j44289702756791_2_alg».proof.Proof.Gen.KernelIdeal.Value
import proofs.«180913_j44289702756791_2_alg».proof.Proof.Gen.ReferenceIdeal.Run
import proofs.«180913_j44289702756791_2_alg».proof.Proof.Gen.ReferenceIdeal.Read
import proofs.«180913_j44289702756791_2_alg».proof.Proof.KernelValue
import proofs.«180913_j44289702756791_2_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at attention of the arguments: the
    kernel's with the inner products times 1/8, the reference's with them divided by √64 — one function. -/
theorem algebraic : Cert.algebraic_KernelIdeal_ReferenceIdeal := by
  intro m ρ m' ρ' _ hagree
  refine ⟨_, Cert.Attn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Attn.Ref.ref_eq, (hagree c).1, (hagree c).2.1, (hagree c).2.2.1,
    (hagree c).2.2.2, ← Cert.Attn.scaleMul_eq_scaleDiv]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
